-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x512 : Shape := ⟨4, ![16, 64, 64, 512]⟩
abbrev S512x512 : Shape := ⟨2, ![512, 512]⟩
abbrev S512 : Shape := ⟨1, ![512]⟩
abbrev S1 : Shape := ⟨1, ![1]⟩
abbrev S_ : Shape := ⟨0, ![]⟩

class Facts : Prop where
  bcast_S_S16x64x64x512 : S_.BroadcastsInDim S16x64x64x512 (![] : Fin 0 → Fin S16x64x64x512.rank)
  reducesTo_S16x64x64x512_S_d0_1_2_3 : S16x64x64x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512 .f32) (main_arg5 : FVec F S512x512 .f32) (main_arg6 : FVec F S512 .f32) (main_arg7 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S16x64x64x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S1 .f32) : IVec S_ 1 :=
  let main_v0 : FVec F S16x64x64x512 .f32 := Host.absf main_arg0
  let main_cst : FVec F S_ .f32 := constant S_ .f32 0x7F800000#32
  let main_v1 : FVec F S16x64x64x512 .f32 := broadcastInDim S16x64x64x512 ![] bcast_S_S16x64x64x512 main_cst
  let main_v2 : IVec S16x64x64x512 1 := cmpf .olt main_v0 main_v1
  let main_c : IVec S_ 1 := constantI S_ 1 1#1
  let main_v3 : IVec S_ 1 := (fun x v => Host.reduce IntOp.andi x v reducesTo_S16x64x64x512_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_v13 main_v16
-- ==== Kernel.lean ====
abbrev S16x64x64x512 : Shape := ⟨4, ![16, 64, 64, 512]⟩
abbrev S512x512 : Shape := ⟨2, ![512, 512]⟩
abbrev S512 : Shape := ⟨1, ![512]⟩
abbrev S1 : Shape := ⟨1, ![1]⟩
abbrev S1x64x64x512 : Shape := ⟨4, ![1, 64, 64, 512]⟩
abbrev S64x64x512 : Shape := ⟨3, ![64, 64, 512]⟩
abbrev S4096x512 : Shape := ⟨2, ![4096, 512]⟩
abbrev S1x512 : Shape := ⟨2, ![1, 512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S16x64x64x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1, .f32⟩
  | .hbm, ⟨8, _⟩ => ⟨S512x512, .bf16⟩
  | .hbm, ⟨9, _⟩ => ⟨S512x512, .bf16⟩
  | .hbm, ⟨10, _⟩ => ⟨S512x512, .bf16⟩
  | .hbm, ⟨11, _⟩ => ⟨S16x64x64x512, .f32⟩
  | .local _ .vmem, ⟨0, _⟩ => ⟨S1x64x64x512, .f32⟩
  | .local _ .vmem, ⟨1, _⟩ => ⟨S512x512, .bf16⟩
  | .local _ .vmem, ⟨2, _⟩ => ⟨S512, .f32⟩
  | .local _ .vmem, ⟨3, _⟩ => ⟨S512x512, .bf16⟩
  | .local _ .vmem, ⟨4, _⟩ => ⟨S512, .f32⟩
  | .local _ .vmem, ⟨5, _⟩ => ⟨S512x512, .bf16⟩
  | .local _ .vmem, ⟨6, _⟩ => ⟨S512, .f32⟩
  | .local _ .vmem, ⟨7, _⟩ => ⟨S1, .f32⟩
  | .local _ .vmem, ⟨8, _⟩ => ⟨S1x64x64x512, .f32⟩
  | _, _ => ⟨S16x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x64x64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64x64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

class Facts₀ : Prop where
  bitsLt_bf16_f32 : FTy.bits .bf16 < FTy.bits .f32
  inb_S1x64x64x512_S1x64x64x512_0_0_0_0 : ∀ a, (![0, 0, 0, 0] : Fin 4 → Nat) a + S1x64x64x512.size a ≤ S1x64x64x512.size a
  h_S1x64x64x512 : 0 < S1x64x64x512.numel
  shapeCasts_S1x64x64x512_S64x64x512 : S1x64x64x512.ShapeCasts S64x64x512
  shapeCasts_S64x64x512_S4096x512 : S64x64x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S4096x512 : S1x512.Broadcasts S4096x512
  reduces_S512x512_S512 : S512x512.Reduces [1] S512
  shapeCasts_S512_S512x1 : S512.ShapeCasts S512x1
  broadcasts_S512x1_S512x512 : S512x1.Broadcasts S512x512
  inb_S1_S1_0 : ∀ a, (![0] : Fin 1 → Nat) a + S1.size a ≤ S1.size a
  h_S1 : 0 < S1.numel
  inpos_S1_p0 : ∀ a, (![0] : Fin 1 → Nat) a < S1.size a
  shapeCasts_S4096x512_S64x64x512 : S4096x512.ShapeCasts S64x64x512
  shapeCasts_S64x64x512_S1x64x64x512 : S64x64x512.ShapeCasts S1x64x64x512
  dot_S4096x512_S512x512_S4096x512_1_0_0_1_n_n_wf : DotDims.WF S4096x512 S512x512 S4096x512 [1] [0] [0] [1] [] []
  dot_S4096x512_S4096x512_S512x512_0_0_1_1_n_n_wf : DotDims.WF S4096x512 S4096x512 S512x512 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64x64x512.size a ≤ S16x64x64x512.size a
  hwx0_0 : ∀ i : grid0.Coords, EltTy.bits .f32 = 32 ∨ (Rect.block (s := S16x64x64x512) S1x64x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64x64x512.size a ≤ S16x64x64x512.size a
  hwx0_8 : ∀ i : grid0.Coords, EltTy.bits .f32 = 32 ∨ (Rect.block (s := S16x64x64x512) S1x64x64x512.size (cc0_transform_8 i) (hinb0_8 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S4096x512_S512x512_0_0_1_1_n_n : DotDims S4096x512 S4096x512 S512x512 where
  lhsContracting := [0]
  rhsContracting := [0]
  lhsNonContracting := [1]
  rhsNonContracting := [1]
  lhsBatch := []
  rhsBatch := []
  wf := dot_S4096x512_S4096x512_S512x512_0_0_1_1_n_n_wf

abbrev win0_0 : Pipeline.Window sig grid0 :=
  Pipeline.Window.ofSpec (Memref.whole main_arg0) S1x64x64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x64x64x512.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x64x64x512 : Shape := ⟨4, ![16, 64, 64, 512]⟩
abbrev S512x512 : Shape := ⟨2, ![512, 512]⟩
abbrev S512 : Shape := ⟨1, ![512]⟩
abbrev S1 : Shape := ⟨1, ![1]⟩
abbrev S1x1x1x512 : Shape := ⟨4, ![1, 1, 1, 512]⟩
abbrev S16x4096x512 : Shape := ⟨3, ![16, 4096, 512]⟩
abbrev S16x512x512 : Shape := ⟨3, ![16, 512, 512]⟩
abbrev S_ : Shape := ⟨0, ![]⟩
abbrev S16x512 : Shape := ⟨2, ![16, 512]⟩
abbrev S16x512x1 : Shape := ⟨3, ![16, 512, 1]⟩
abbrev S1x1x1x1 : Shape := ⟨4, ![1, 1, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S16x64x64x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1, .f32⟩
  | .hbm, ⟨8, _⟩ => ⟨S16x64x64x512, .f32⟩
  | .hbm, ⟨9, _⟩ => ⟨S1x1x1x512, .f32⟩
  | .hbm, ⟨10, _⟩ => ⟨S16x64x64x512, .f32⟩
  | .hbm, ⟨11, _⟩ => ⟨S16x64x64x512, .f32⟩
  | .hbm, ⟨12, _⟩ => ⟨S16x4096x512, .f32⟩
  | .hbm, ⟨13, _⟩ => ⟨S16x64x64x512, .f32⟩
  | .hbm, ⟨14, _⟩ => ⟨S1x1x1x512, .f32⟩
  | .hbm, ⟨15, _⟩ => ⟨S16x64x64x512, .f32⟩
  | .hbm, ⟨16, _⟩ => ⟨S16x64x64x512, .f32⟩
  | .hbm, ⟨17, _⟩ => ⟨S16x4096x512, .f32⟩
  | .hbm, ⟨18, _⟩ => ⟨S16x64x64x512, .f32⟩
  | .hbm, ⟨19, _⟩ => ⟨S1x1x1x512, .f32⟩
  | .hbm, ⟨20, _⟩ => ⟨S16x64x64x512, .f32⟩
  | .hbm, ⟨21, _⟩ => ⟨S16x64x64x512, .f32⟩
  | .hbm, ⟨22, _⟩ => ⟨S16x4096x512, .f32⟩
  | .hbm, ⟨23, _⟩ => ⟨S16x512x512, .f32⟩
  | .hbm, ⟨24, _⟩ => ⟨S_, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512x1, .f32⟩
  | .hbm, ⟨30, _⟩ => ⟨S16x512x512, .f32⟩
  | .hbm, ⟨31, _⟩ => ⟨S16x512x512, .f32⟩
  | .hbm, ⟨32, _⟩ => ⟨S16x512x512, .f32⟩
  | .hbm, ⟨33, _⟩ => ⟨S_, .f32⟩
  | .hbm, ⟨34, _⟩ => ⟨S16x512, .f32⟩
  | .hbm, ⟨35, _⟩ => ⟨S16x512x1, .f32⟩
  | .hbm, ⟨36, _⟩ => ⟨S16x512x512, .f32⟩
  | .hbm, ⟨37, _⟩ => ⟨S16x512x512, .f32⟩
  | .hbm, ⟨38, _⟩ => ⟨S16x4096x512, .f32⟩
  | .hbm, ⟨39, _⟩ => ⟨S16x64x64x512, .f32⟩
  | .hbm, ⟨40, _⟩ => ⟨S1x1x1x1, .f32⟩
  | .hbm, ⟨41, _⟩ => ⟨S16x64x64x512, .f32⟩
  | .hbm, ⟨42, _⟩ => ⟨S16x64x64x512, .f32⟩
  | .hbm, ⟨43, _⟩ => ⟨S16x64x64x512, .f32⟩
  | _, _ => ⟨S16x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S16x64x64x512_0_1_2_3 : S1x1x1x512.BroadcastsInDim S16x64x64x512 (![0, 1, 2, 3] : Fin 4 → Fin S16x64x64x512.rank)
  shapeCasts_S16x64x64x512_S16x4096x512 : S16x64x64x512.ShapeCasts S16x4096x512
  reducesTo_S16x512x512_S16x512_d2 : S16x512x512.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  shapeCasts_S16x4096x512_S16x64x64x512 : S16x4096x512.ShapeCasts S16x64x64x512
  bcast_S1_S1x1x1x1_3 : S1.BroadcastsInDim S1x1x1x1 (![3] : Fin 1 → Fin S1x1x1x1.rank)
  bcast_S1x1x1x1_S16x64x64x512_0_1_2_3 : S1x1x1x1.BroadcastsInDim S16x64x64x512 (![0, 1, 2, 3] : Fin 4 → Fin S16x64x64x512.rank)
  dot_S16x64x64x512_S512x512_S16x64x64x512_3_0_012_1_n_n_wf : DotDims.WF S16x64x64x512 S512x512 S16x64x64x512 [3] [0] [0, 1, 2] [1] [] []
  dot_S16x4096x512_S16x4096x512_S16x512x512_1_1_2_2_0_0_wf : DotDims.WF S16x4096x512 S16x4096x512 S16x512x512 [1] [1] [2] [2] [0] [0]
  dot_S16x4096x512_S16x512x512_S16x4096x512_2_1_1_2_0_0_wf : DotDims.WF S16x4096x512 S16x512x512 S16x4096x512 [2] [1] [1] [2] [0] [0]

variable [Facts₀]

def dot_S16x64x64x512_S512x512_S16x64x64x512_3_0_012_1_n_n : DotDims S16x64x64x512 S512x512 S16x64x64x512 where
  lhsContracting := [3]
  rhsContracting := [0]
  lhsNonContracting := [0, 1, 2]
  rhsNonContracting := [1]
  lhsBatch := []
  rhsBatch := []
  wf := dot_S16x64x64x512_S512x512_S16x64x64x512_3_0_012_1_n_n_wf
def dot_S16x4096x512_S16x4096x512_S16x512x512_1_1_2_2_0_0 : DotDims S16x4096x512 S16x4096x512 S16x512x512 where
  lhsContracting := [1]
  rhsContracting := [1]
  lhsNonContracting := [2]
  rhsNonContracting := [2]
  lhsBatch := [0]
  rhsBatch := [0]
  wf := dot_S16x4096x512_S16x4096x512_S16x512x512_1_1_2_2_0_0_wf
def dot_S16x4096x512_S16x512x512_S16x4096x512_2_1_1_2_0_0 : DotDims S16x4096x512 S16x512x512 S16x4096x512 where
  lhsContracting := [2]
  rhsContracting := [1]
  lhsNonContracting := [1]
  rhsNonContracting := [2]
  lhsBatch := [0]
  rhsBatch := [0]
  wf := dot_S16x4096x512_S16x512x512_S16x4096x512_2_1_1_2_0_0_wf

class Facts : Prop extends Facts₀ where

variable [Facts]
-- ==== Proof.LibRowSoftmax.lean ====
/-
  Row-wise softmax read at an index, at the ideal (extended-real) values.

  A kernel that normalises the rows of an `[a, b]` matrix writes
  `exp (s - max_row s) / sum_row (exp (s - max_row s))`, the two row statistics taken by a reduction over
  axis 1, turned into a column `[a, 1]` and spread back over the `b` lanes. Entry `(r, j)` of the result
  depends on row `r` of `s` only: it is `softmaxOf (fun j' => s (r, j')) j`, where
  `softmaxOf f j = exp (f j - M) / ∑ j', exp (f j' - M)` and `M` is the maximum of `f` folded from `-∞`.
  No algebra on the extended reals is used: each printed operation is read at the index.
-/
import Idealize.ShloMosaic.PureOps.Ideal.Laws
import Idealize.ShloMosaic.Lib.ValueIdx
import Idealize.ShloMosaic.Lib.ValueLayout

noncomputable section

namespace Cert.Lib.RowSoftmax

open Idealize.ShloMosaic Idealize.ShloMosaic.ValueIdx

/-! ## The two keep-dims layout steps -/

section Layout
variable {α : Type}

/-- A length-`a` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a per-row statistic spread back over the lanes reads, at `(i, j)`, the statistic of row `i`. -/
theorem keepdims_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) :=
  (broadcastTo_a1_ab_apply _ hb i j).trans (shapeCast_a_a1_apply x hc i 0)

end Layout

/-! ## The two row reductions -/

/-- The index over row `r` with lane `j` inserted is `(r, j)`. -/
theorem lift_row {a b : ℕ} (h : (⟨2, ![a, b]⟩ : Shape).Reduces [1] ⟨1, ![a]⟩) (r : Fin a) (j : Fin b) :
    h.lift (ix1 r) j = ix2 r j := by
  funext c; apply Fin.ext
  match c with
  | ⟨0, _⟩ => rfl
  | ⟨1, _⟩ => rfl

/-- A maximum over the lanes, at row `r`: the fold of `max` from the accumulator's value over that row's entries. -/
theorem rowMax_apply {a b : ℕ} (s : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ s acc h hφ hacc (ix1 r)
      = (Finset.univ : Finset (Fin b)).fold max (Ideal.ofBits .f32 acc) (fun j => s (ix2 r j)) := by
  refine (Ideal.multiReduction_maximumf_single s acc h hφ hacc (ix1 r)).trans ?_
  show (Finset.univ : Finset (Fin b)).fold max (Ideal.ofBits .f32 acc) (fun j => s (h.lift (ix1 r) j)) = _
  exact congrArg (fun f => (Finset.univ : Finset (Fin b)).fold max (Ideal.ofBits .f32 acc) f)
    (funext fun j => congrArg s (lift_row h r j))

/-- A sum over the lanes, at row `r`: the sum of that row's entries. -/
theorem rowSum_apply {a b : ℕ} (p : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ p acc h hφ hacc (ix1 r) = ∑ j : Fin b, p (ix2 r j) := by
  refine (Ideal.multiReduction_add_single p acc h hφ hacc (ix1 r)).trans ?_
  show ∑ j : Fin b, p (h.lift (ix1 r) j) = _
  exact Finset.sum_congr rfl fun j _ => congrArg p (lift_row h r j)

/-! ## Softmax of one row -/

/-- `-∞`, as the bit pattern both programs start their maximum from. -/
abbrev negInf : EReal := Ideal.ofBits .f32 0xFF800000#32

/-- The maximum of a row, folded from `-∞`. -/
def maxOf {b : ℕ} (f : Fin b → EReal) : EReal := (Finset.univ : Finset (Fin b)).fold max negInf f

/-- Taking the maximum with `-∞` once more changes nothing: the fold already starts there. -/
theorem max_negInf_maxOf {b : ℕ} (f : Fin b → EReal) : max negInf (maxOf f) = maxOf f :=
  max_eq_right ((Finset.le_fold_max negInf).mpr (Or.inl le_rfl))

/-- The unnormalised weight of lane `j`: `exp (f j - max f)`. -/
def weightOf {b : ℕ} (f : Fin b → EReal) (j : Fin b) : EReal := Ideal.exp (f j - maxOf f)

/-- Softmax of a row at lane `j`: its weight over the sum of the row's weights. -/
def softmaxOf {b : ℕ} (f : Fin b → EReal) (j : Fin b) : EReal :=
  Ideal.div (weightOf f j) (∑ j' : Fin b, weightOf f j')

/-- The chain a kernel prints for a row-wise softmax of an `[a, b]` matrix `s` — row maximum, subtract, `exp`,
    row sum, divide, both statistics kept as columns and spread over the lanes — read at `(r, j)`: the softmax of
    row `r` at lane `j`. -/
theorem softmax_rows_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (j : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r j)
      = softmaxOf (fun j' => s (ix2 r j')) j := by
  -- the weights, entry by entry
  have hw : ∀ j' : Fin b,
      exp (subf s (broadcastTo ⟨2, ![a, b]⟩ (shapeCast ⟨2, ![a, 1]⟩
          (multiReduction .maximumf [1] ⟨1, ![a]⟩ s 0xFF800000#32 hr hφ hmax) hc) hb)) (ix2 r j')
        = weightOf (fun j'' => s (ix2 r j'')) j' := by
    intro j'
    show Ideal.exp (s (ix2 r j') - broadcastTo ⟨2, ![a, b]⟩ (shapeCast ⟨2, ![a, 1]⟩
          (multiReduction .maximumf [1] ⟨1, ![a]⟩ s 0xFF800000#32 hr hφ hmax) hc) hb (ix2 r j')) = _
    rw [keepdims_apply _ hc hb r j', rowMax_apply s _ hr hφ hmax r]
    rfl
  show Ideal.div _ _ = _
  rw [hw j, keepdims_apply _ hc hb r j, rowSum_apply _ _ hr hφ hadd r]
  unfold softmaxOf
  exact congrArg (Ideal.div _) (Finset.sum_congr rfl fun j' _ => hw j')

end Cert.Lib.RowSoftmax

end
-- ==== Proof.AttnSpec.lean ====
/-
  What the attention block computes, as one function of its eight argument arrays, over the extended reals.

  An image `x` of shape [16, 64, 64, 512] is a batch of 16 pictures of 64 × 64 = 4096 pixels with 512 channels each;
  pixel `n` of a picture sits at row `n / 64`, column `n % 64`. Three 1 × 1 convolutions give every pixel a query, a
  key and a value vector: `proj w b` at (picture, pixel `n`, channel `f`) is `∑ j, x[n, j] * w[j, f] + b[f]`.
  The channel-by-channel scores of a picture are `score c d = ∑ n, q[n, c] * k[n, d]`; each row `c` of the scores
  is normalised by softmax over `d`; the values are mixed by it, `mixed n d = ∑ c, v[n, c] * attn c d`; and the
  result is the image plus `gamma` times the mix.
-/
import Idealize.ShloMosaic.PureOps.Ideal
import Idealize.ShloMosaic.Lib.ValueIdx
import proofs.«151281_j27994596835718_1_alg».proof.Proof.LibRowSoftmax

noncomputable section

namespace Cert.Attn

open Idealize.ShloMosaic Idealize.ShloMosaic.ValueIdx Cert.Lib.RowSoftmax

/-- The image's shape: 16 pictures, 64 rows, 64 columns, 512 channels. -/
abbrev Img : Shape := ⟨4, ![16, 64, 64, 512]⟩
/-- A weight matrix: input channel by output channel. -/
abbrev Mat : Shape := ⟨2, ![512, 512]⟩
/-- A bias: one entry per output channel. -/
abbrev Chan : Shape := ⟨1, ![512]⟩
/-- The one-entry array that holds `gamma`. -/
abbrev One : Shape := ⟨1, ![1]⟩

/-- The row of pixel `n`. -/
def pixRow (n : Fin 4096) : Fin 64 := ⟨n.val / 64, by have := n.isLt; omega⟩
/-- The column of pixel `n`. -/
def pixCol (n : Fin 4096) : Fin 64 := ⟨n.val % 64, by omega⟩
/-- The pixel at row `h`, column `w`. -/
def pixOf (h w : Fin 64) : Fin 4096 := ⟨h.val * 64 + w.val, by have := h.isLt; have := w.isLt; omega⟩

theorem pixRow_pixOf (h w : Fin 64) : pixRow (pixOf h w) = h :=
  Fin.ext (by show (h.val * 64 + w.val) / 64 = h.val; have := w.isLt; omega)
theorem pixCol_pixOf (h w : Fin 64) : pixCol (pixOf h w) = w :=
  Fin.ext (by show (h.val * 64 + w.val) % 64 = w.val; have := w.isLt; omega)
theorem pixOf_row_col (n : Fin 4096) : pixOf (pixRow n) (pixCol n) = n :=
  Fin.ext (by show n.val / 64 * 64 + n.val % 64 = n.val; omega)

variable (x : Img.Idx → EReal)

/-- A 1 × 1 convolution with weights `w` and bias `b`: picture `p`, pixel `n`, output channel `f`. -/
def proj (w : Mat.Idx → EReal) (b : Chan.Idx → EReal) (p : Fin 16) (n : Fin 4096) (f : Fin 512) : EReal :=
  (∑ j : Fin 512, x (ix4 p (pixRow n) (pixCol n) j) * w (ix2 j f)) + b (ix1 f)

/-- The scores of picture `p`: query channel `c` against key channel `d`, summed over the pixels. -/
def score (wq : Mat.Idx → EReal) (bq : Chan.Idx → EReal) (wk : Mat.Idx → EReal) (bk : Chan.Idx → EReal)
    (p : Fin 16) (c d : Fin 512) : EReal :=
  ∑ n : Fin 4096, proj x wq bq p n c * proj x wk bk p n d

/-- The attention weights: each row `c` of the scores, normalised by softmax over `d`. -/
def attn (wq : Mat.Idx → EReal) (bq : Chan.Idx → EReal) (wk : Mat.Idx → EReal) (bk : Chan.Idx → EReal)
    (p : Fin 16) (c d : Fin 512) : EReal :=
  softmaxOf (fun d' => score x wq bq wk bk p c d') d

/-- The values mixed by the attention weights: picture `p`, pixel `n`, channel `d`. -/
def mixed (wq : Mat.Idx → EReal) (bq : Chan.Idx → EReal) (wk : Mat.Idx → EReal) (bk : Chan.Idx → EReal)
    (wv : Mat.Idx → EReal) (bv : Chan.Idx → EReal) (p : Fin 16) (n : Fin 4096) (d : Fin 512) : EReal :=
  ∑ c : Fin 512, proj x wv bv p n c * attn x wq bq wk bk p c d

/-- The whole block: the image plus `gamma` times the mix, entry by entry. -/
def result (wq : Mat.Idx → EReal) (bq : Chan.Idx → EReal) (wk : Mat.Idx → EReal) (bk : Chan.Idx → EReal)
    (wv : Mat.Idx → EReal) (bv : Chan.Idx → EReal) (g : One.Idx → EReal) : Img.Idx → EReal := fun i =>
  x i + g (ix1 0) * mixed x wq bq wk bk wv bv (i 0) (pixOf (i 1) (i 2)) (i 3)

end Cert.Attn

end
-- ==== Proof.KernelEntry.lean ====
/-
  The kernel body's operations read at an index, at the ideal (extended-real) values.

  The body sees one picture as a [4096, 512] matrix of pixels by channels. Its two kinds of matrix product are read as
  plain sums: rows times a weight matrix, `∑ k, l[n, k] * r[k, f]`, and the product that contracts the PIXEL axis of
  two pixel-by-channel matrices, `∑ n, l[n, c] * r[n, d]`. The two shape casts that flatten a [1, 64, 64, 512] block
  send pixel `n`, channel `j` to row `n / 64`, column `n % 64`; a bias is one row spread over all pixels.
-/
import proofs.«151281_j27994596835718_1_alg».proof.Proof.Gen.KernelIdeal.Skeleton
import proofs.«151281_j27994596835718_1_alg».proof.Proof.AttnSpec
import Idealize.ShloMosaic.PureOps.Ideal.Laws
import Idealize.ShloMosaic.Lib.ValueIdx
import Idealize.ShloMosaic.Lib.Pipeline.Value

noncomputable section

namespace Cert.KernelIdeal.Entry

open Cert.KernelIdeal Cert.KernelIdeal.Gen Idealize.ShloMosaic Idealize.ShloMosaic.ValueIdx Cert.Lib.RowSoftmax Cert.Attn

/-! ## Rows times a weight matrix -/

theorem rows_lhs0 (i : S4096x512.Idx) (q : dot_S4096x512_S512x512_S4096x512_1_0_0_1_n_n.contr.Idx) : (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem rows_lhs1 (i : S4096x512.Idx) (q : dot_S4096x512_S512x512_S4096x512_1_0_0_1_n_n.contr.Idx) : (dot_S4096x512_S512x512_S4096x512_1_0_0_1_n_n.lhsIdx i q 1).val = (q ⟨0, by decide⟩).val :=
  dot_S4096x512_S512x512_S4096x512_1_0_0_1_n_n.lhsIdx_val_of_single rfl i q
theorem rows_rhs0 (i : S4096x512.Idx) (q : dot_S4096x512_S512x512_S4096x512_1_0_0_1_n_n.contr.Idx) : (dot_S4096x512_S512x512_S4096x512_1_0_0_1_n_n.rhsIdx i q 0).val = (q ⟨0, by decide⟩).val :=
  dot_S4096x512_S512x512_S4096x512_1_0_0_1_n_n.rhsIdx_val_of_single rfl i q
theorem rows_rhs1 (i : S4096x512.Idx) (q : dot_S4096x512_S512x512_S4096x512_1_0_0_1_n_n.contr.Idx) : (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- Entry (n, f) of pixels-by-channels times a weight matrix, accumulated from zero: the sum over the input channels. -/
theorem rowsTimes_apply {φ₁ φ₂ : FTy} (l : FVec Ideal S4096x512 φ₁) (r : FVec Ideal S512x512 φ₂) (n : Fin 4096) (f : Fin 512) :
    matmul dot_S4096x512_S512x512_S4096x512_1_0_0_1_n_n none l r (constant S4096x512 .f32 0x00000000#32) (ix2 n f) = ∑ k : Fin 512, l (ix2 n k) * r (ix2 k f) := by
  refine (Ideal.matmul_constant_zero_apply dot_S4096x512_S512x512_S4096x512_1_0_0_1_n_n none l r (ix2 n f)).trans ?_
  rw [← Equiv.sum_comp (ValueIdx.contrEquiv1 dot_S4096x512_S512x512_S4096x512_1_0_0_1_n_n 512 rfl rfl).symm]
  refine Finset.sum_congr rfl fun k _ => ?_
  have hk := ValueIdx.contrEquiv1_symm_val dot_S4096x512_S512x512_S4096x512_1_0_0_1_n_n 512 rfl rfl k
  have el : dot_S4096x512_S512x512_S4096x512_1_0_0_1_n_n.lhsIdx (ix2 n f) ((ValueIdx.contrEquiv1 dot_S4096x512_S512x512_S4096x512_1_0_0_1_n_n 512 rfl rfl).symm k) = ix2 n k := funext fun a => Fin.ext (by
    match a with
    | ⟨0, _⟩ => exact rows_lhs0 _ _
    | ⟨1, _⟩ => exact (rows_lhs1 _ _).trans hk)
  have er : dot_S4096x512_S512x512_S4096x512_1_0_0_1_n_n.rhsIdx (ix2 n f) ((ValueIdx.contrEquiv1 dot_S4096x512_S512x512_S4096x512_1_0_0_1_n_n 512 rfl rfl).symm k) = ix2 k f := funext fun a => Fin.ext (by
    match a with
    | ⟨0, _⟩ => exact (rows_rhs0 _ _).trans hk
    | ⟨1, _⟩ => exact rows_rhs1 _ _)
  rw [el, er]

/-! ## The product that contracts the pixel axis -/

theorem pix_lhs0 (i : S512x512.Idx) (q : dot_S4096x512_S4096x512_S512x512_0_0_1_1_n_n.contr.Idx) : (dot_S4096x512_S4096x512_S512x512_0_0_1_1_n_n.lhsIdx i q 0).val = (q ⟨0, by decide⟩).val :=
  dot_S4096x512_S4096x512_S512x512_0_0_1_1_n_n.lhsIdx_val_of_single rfl i q
theorem pix_lhs1 (i : S512x512.Idx) (q : dot_S4096x512_S4096x512_S512x512_0_0_1_1_n_n.contr.Idx) : (dot_S4096x512_S4096x512_S512x512_0_0_1_1_n_n.lhsIdx i q 1).val = (i 0).val := by
  unfold DotDims.lhsIdx
  rw [dif_neg (show ¬(1 : Fin S4096x512.rank) ∈ dot_S4096x512_S4096x512_S512x512_0_0_1_1_n_n.lhsBatch by decide), dif_pos (show (1 : Fin S4096x512.rank) ∈ dot_S4096x512_S4096x512_S512x512_0_0_1_1_n_n.lhsNonContracting by decide)]
  rfl
theorem pix_rhs0 (i : S512x512.Idx) (q : dot_S4096x512_S4096x512_S512x512_0_0_1_1_n_n.contr.Idx) : (dot_S4096x512_S4096x512_S512x512_0_0_1_1_n_n.rhsIdx i q 0).val = (q ⟨0, by decide⟩).val :=
  dot_S4096x512_S4096x512_S512x512_0_0_1_1_n_n.rhsIdx_val_of_single rfl i q
theorem pix_rhs1 (i : S512x512.Idx) (q : dot_S4096x512_S4096x512_S512x512_0_0_1_1_n_n.contr.Idx) : (dot_S4096x512_S4096x512_S512x512_0_0_1_1_n_n.rhsIdx i q 1).val = (i 1).val := by
  unfold DotDims.rhsIdx
  rw [dif_neg (show ¬(1 : Fin S4096x512.rank) ∈ dot_S4096x512_S4096x512_S512x512_0_0_1_1_n_n.rhsBatch by decide), dif_pos (show (1 : Fin S4096x512.rank) ∈ dot_S4096x512_S4096x512_S512x512_0_0_1_1_n_n.rhsNonContracting by decide)]
  rfl

/-- Entry (c, d) of the product of two pixels-by-channels matrices over their pixel axis, accumulated from zero: the sum over the pixels. -/
theorem overPixels_apply {φ₁ φ₂ : FTy} (l : FVec Ideal S4096x512 φ₁) (r : FVec Ideal S4096x512 φ₂) (c d : Fin 512) :
    matmul dot_S4096x512_S4096x512_S512x512_0_0_1_1_n_n none l r (constant S512x512 .f32 0x00000000#32) (ix2 c d) = ∑ n : Fin 4096, l (ix2 n c) * r (ix2 n d) := by
  refine (Ideal.matmul_constant_zero_apply dot_S4096x512_S4096x512_S512x512_0_0_1_1_n_n none l r (ix2 c d)).trans ?_
  rw [← Equiv.sum_comp (ValueIdx.contrEquiv1 dot_S4096x512_S4096x512_S512x512_0_0_1_1_n_n 4096 rfl rfl).symm]
  refine Finset.sum_congr rfl fun k _ => ?_
  have hk := ValueIdx.contrEquiv1_symm_val dot_S4096x512_S4096x512_S512x512_0_0_1_1_n_n 4096 rfl rfl k
  have el : dot_S4096x512_S4096x512_S512x512_0_0_1_1_n_n.lhsIdx (ix2 c d) ((ValueIdx.contrEquiv1 dot_S4096x512_S4096x512_S512x512_0_0_1_1_n_n 4096 rfl rfl).symm k) = ix2 k c := funext fun a => Fin.ext (by
    match a with
    | ⟨0, _⟩ => exact (pix_lhs0 _ _).trans hk
    | ⟨1, _⟩ => exact pix_lhs1 _ _)
  have er : dot_S4096x512_S4096x512_S512x512_0_0_1_1_n_n.rhsIdx (ix2 c d) ((ValueIdx.contrEquiv1 dot_S4096x512_S4096x512_S512x512_0_0_1_1_n_n 4096 rfl rfl).symm k) = ix2 k d := funext fun a => Fin.ext (by
    match a with
    | ⟨0, _⟩ => exact (pix_rhs0 _ _).trans hk
    | ⟨1, _⟩ => exact pix_rhs1 _ _)
  rw [el, er]

/-! ## The layout steps -/

/-- The block [1, 64, 64, 512] flattened to pixels by channels: pixel `n`, channel `j` is row `n / 64`, column `n % 64`. -/
theorem pixels_apply (v0 : Vec Ideal S1x64x64x512 .f32) (n : Fin 4096) (j : Fin 512) :
    k0_pay2 v0 (ix2 n j) = v0 (ix4 0 (pixRow n) (pixCol n) j) := by
  unfold k0_pay2
  refine (shapeCast_apply _ _ (ix2 n j) (ix3 (pixRow n) (pixCol n) j) ?_).trans ?_
  · rw [Shape.rowMajor_val_three, Shape.rowMajor_val_two]
    show (n.val / 64 * 64 + n.val % 64) * 512 + j.val = n.val * 512 + j.val
    omega
  · refine shapeCast_apply _ _ _ (ix4 0 (pixRow n) (pixCol n) j) ?_
    rw [Shape.rowMajor_val_four, Shape.rowMajor_val_three]
    show ((0 * 64 + n.val / 64) * 64 + n.val % 64) * 512 + j.val = (n.val / 64 * 64 + n.val % 64) * 512 + j.val
    omega

/-- A bias, as a row [1, 512] spread over the 4096 pixels, reads its entry of the channel. -/
theorem biasRow_apply (b : Vec Ideal S512 .f32) (hc : S512.ShapeCasts S1x512) (hb : S1x512.Broadcasts S4096x512) (n : Fin 4096) (f : Fin 512) :
    broadcastTo S4096x512 (shapeCast S1x512 b hc) hb (ix2 n f) = b (ix1 f) := by
  refine (broadcastTo_apply _ hb (ix2 n f) (ix2 (0 : Fin 1) f) fun ax => ?_).trans ?_
  · match ax with
    | ⟨0, _⟩ => rfl
    | ⟨1, _⟩ => rfl
  · refine shapeCast_apply b hc _ (ix1 f) ?_
    rw [Shape.rowMajor_val_one, Shape.rowMajor_val_two]
    show f.val = 0 * 512 + f.val
    omega

end Cert.KernelIdeal.Entry

end
-- ==== Proof.KernelBody.lean ====
/-
  The kernel body's result for one picture, read entry by entry.

  With the picture's block `v0` holding picture `p` of the image `x`, each stage of the body is the corresponding
  stage of the specification: the three projections, the scores summed over the pixels, the softmax weights
  `exp (s - row maximum)` (the body takes the maximum with `-∞` once more, which changes nothing), their row sums,
  and finally `x + gamma * (values mixed by weights / row sums)`, cast back to the block's shape.
-/
import proofs.«151281_j27994596835718_1_alg».proof.Proof.KernelEntry

noncomputable section

namespace Cert.KernelIdeal.Entry

open Cert.KernelIdeal Cert.KernelIdeal.Gen Idealize.ShloMosaic Idealize.ShloMosaic.ValueIdx Cert.Lib.RowSoftmax Cert.Attn

/-! ## Two stages over any operands -/

/-- The weights of a score matrix `s`: `exp (s - M)` with `M` the row maximum, taken once more against `-∞`. -/
theorem weightsOfScores (s : FVec Ideal S512x512 .f32) (hr : S512x512.Reduces [1] S512) (hc : S512.ShapeCasts S512x1)
    (hb : S512x1.Broadcasts S512x512) (hφ : FKind.Formats .f32)
    (hmax : (0xFF800000#32 : BitVec 32) = FKind.maximumf.neutral .f32 hφ) (c d : Fin 512) :
    exp (subf s (broadcastTo S512x512 (shapeCast S512x1
        (maximumf (broadcast S512 (Scalar.ofBits (F := Ideal) .f32 0xFF800000#32)) (multiReduction .maximumf [1] S512 s 0xFF800000#32 hr hφ hmax)) hc) hb)) (ix2 c d)
      = weightOf (fun d' => s (ix2 c d')) d := by
  show Ideal.exp (s (ix2 c d) - broadcastTo S512x512 (shapeCast S512x1
        (maximumf (broadcast S512 (Scalar.ofBits (F := Ideal) .f32 0xFF800000#32)) (multiReduction .maximumf [1] S512 s 0xFF800000#32 hr hφ hmax)) hc) hb (ix2 c d)) = _
  rw [keepdims_apply _ hc hb c d]
  show Ideal.exp (s (ix2 c d) - max negInf (multiReduction .maximumf [1] S512 s 0xFF800000#32 hr hφ hmax (ix1 c))) = _
  rw [rowMax_apply s _ hr hφ hmax c]
  show Ideal.exp (s (ix2 c d) - max negInf (maxOf fun d' => s (ix2 c d'))) = _
  rw [max_negInf_maxOf]
  rfl

/-- The last stage over any operands: the picture plus `gamma` times the values mixed by weights over row sums, cast back
    to the block's shape; entry (0, h, w, d) is pixel `h * 64 + w`, channel `d`. -/
theorem residual_apply (v2 : FVec Ideal S4096x512 .f32) (v27 : FVec Ideal S4096x512 .bf16) (v35 v38 : FVec Ideal S512x512 .f32)
    (v42 : FVec Ideal S1 .f32) (h w : Fin 64) (d : Fin 512) :
    k0_pay1 v2 v27 v35 v38 v42 (ix4 0 h w d)
      = v2 (ix2 (pixOf h w) d) + v42 (ix1 0) * ∑ c : Fin 512, v27 (ix2 (pixOf h w) c) * Ideal.div (v35 (ix2 c d)) (v38 (ix2 c d)) := by
  unfold k0_pay1
  refine (shapeCast_apply _ _ (ix4 0 h w d) (ix3 h w d) ?_).trans ?_
  · rw [Shape.rowMajor_val_three, Shape.rowMajor_val_four]
    show (h.val * 64 + w.val) * 512 + d.val = ((0 * 64 + h.val) * 64 + w.val) * 512 + d.val
    omega
  refine (shapeCast_apply _ _ (ix3 h w d) (ix2 (pixOf h w) d) ?_).trans ?_
  · rw [Shape.rowMajor_val_two, Shape.rowMajor_val_three]
    rfl
  refine congrArg₂ (· + ·) rfl (congrArg₂ (· * ·) ?_ ?_)
  · exact congrArg v42 (funext fun a => Fin.ext (by match a with | ⟨0, _⟩ => rfl))
  · exact (rowsTimes_apply _ _ (pixOf h w) d).trans (Finset.sum_congr rfl fun c _ => rfl)

/-! ## The stages over one picture of the image -/

section Picture

variable (x : Img.Idx → EReal) (p : Fin 16) (v0 : Vec Ideal S1x64x64x512 .f32)
  (hx : ∀ (h w : Fin 64) (j : Fin 512), v0 (ix4 0 h w j) = x (ix4 p h w j))
include hx

/-- A projection as the body writes it — pixels times weights, plus the bias row, narrowed — is the specification's. -/
theorem projTerm_apply (w : FVec Ideal S512x512 .bf16) (b : FVec Ideal S512 .f32) (hs : S512x512.ShapeCasts S512x512)
    (hc : S512.ShapeCasts S1x512) (hb : S1x512.Broadcasts S4096x512) (hlt : FTy.bits .bf16 < FTy.bits .f32)
    (n : Fin 4096) (f : Fin 512) :
    (truncf .bf16 (addf (matmul dot_S4096x512_S512x512_S4096x512_1_0_0_1_n_n none (k0_pay3 v0) (shapeCast S512x512 w hs) (constant S4096x512 .f32 0x00000000#32))
        (broadcastTo S4096x512 (shapeCast S1x512 b hc) hb)) hlt : FVec Ideal S4096x512 .bf16) (ix2 n f)
      = proj x w b p n f := by
  show matmul dot_S4096x512_S512x512_S4096x512_1_0_0_1_n_n none (k0_pay3 v0) (shapeCast S512x512 w hs) (constant S4096x512 .f32 0x00000000#32) (ix2 n f)
      + broadcastTo S4096x512 (shapeCast S1x512 b hc) hb (ix2 n f) = _
  rw [rowsTimes_apply, biasRow_apply, shapeCast_self]
  unfold proj
  refine congrArg (· + b (ix1 f)) (Finset.sum_congr rfl fun j _ => ?_)
  show k0_pay2 v0 (ix2 n j) * w (ix2 j f) = _
  rw [pixels_apply, hx]

/-- The value projection the body keeps for the last product. -/
theorem values_apply (v20 : FVec Ideal S512x512 .bf16) (v23 : FVec Ideal S512 .f32) (n : Fin 4096) (f : Fin 512) :
    k0_pay4 v0 v20 v23 (ix2 n f) = proj x v20 v23 p n f := by
  unfold k0_pay4
  exact projTerm_apply x p v0 hx v20 v23 _ _ _ _ n f

/-- The body's softmax weights are the specification's, over the scores of picture `p`. -/
theorem weights_apply (v4 : FVec Ideal S512x512 .bf16) (v7 : FVec Ideal S512 .f32) (v12 : FVec Ideal S512x512 .bf16)
    (v15 : FVec Ideal S512 .f32) (c d : Fin 512) :
    k0_pay5 v0 v4 v7 v12 v15 (ix2 c d) = weightOf (fun d' => score x v4 v7 v12 v15 p c d') d := by
  unfold k0_pay5
  refine (weightsOfScores _ _ _ _ _ _ c d).trans ?_
  refine congrArg (fun f => weightOf f d) (funext fun d' => ?_)
  refine (overPixels_apply _ _ c d').trans ?_
  unfold score
  exact Finset.sum_congr rfl fun n _ =>
    congrArg₂ (· * ·) (projTerm_apply x p v0 hx v4 v7 _ _ _ _ n c) (projTerm_apply x p v0 hx v12 v15 _ _ _ _ n d')

/-- The row sums of the weights, spread back over the lanes. -/
theorem weightSum_apply (v4 : FVec Ideal S512x512 .bf16) (v7 : FVec Ideal S512 .f32) (v12 : FVec Ideal S512x512 .bf16)
    (v15 : FVec Ideal S512 .f32) (c d : Fin 512) :
    k0_pay6 v0 v4 v7 v12 v15 (ix2 c d) = ∑ d' : Fin 512, weightOf (fun d'' => score x v4 v7 v12 v15 p c d'') d' := by
  unfold k0_pay6
  refine (keepdims_apply _ _ _ c d).trans ?_
  refine (rowSum_apply _ _ _ _ _ c).trans ?_
  exact Finset.sum_congr rfl fun d' _ => weights_apply x p v0 hx v4 v7 v12 v15 c d'

/-- THE BODY'S RESULT for picture `p`: entry (0, h, w, d) of what it stores is entry (p, h, w, d) of the specification. -/
theorem block_apply (v4 : FVec Ideal S512x512 .bf16) (v7 : FVec Ideal S512 .f32) (v12 : FVec Ideal S512x512 .bf16)
    (v15 : FVec Ideal S512 .f32) (v20 : FVec Ideal S512x512 .bf16) (v23 : FVec Ideal S512 .f32) (v42 : FVec Ideal S1 .f32)
    (h w : Fin 64) (d : Fin 512) :
    k0_pay1 (k0_pay2 v0) (k0_pay4 v0 v20 v23) (k0_pay5 v0 v4 v7 v12 v15) (k0_pay6 v0 v4 v7 v12 v15) v42 (ix4 0 h w d)
      = result x v4 v7 v12 v15 v20 v23 v42 (ix4 p h w d) := by
  refine (residual_apply _ _ _ _ _ h w d).trans ?_
  show _ = x (ix4 p h w d) + v42 (ix1 0) * ∑ c : Fin 512, proj x v20 v23 p (pixOf h w) c
      * Ideal.div (weightOf (fun d' => score x v4 v7 v12 v15 p c d') d) (∑ d' : Fin 512, weightOf (fun d'' => score x v4 v7 v12 v15 p c d'') d')
  refine congrArg₂ (· + ·) ?_ (congrArg (v42 (ix1 0) * ·) (Finset.sum_congr rfl fun c _ => ?_))
  · rw [pixels_apply, hx, pixRow_pixOf, pixCol_pixOf]
  · rw [values_apply x p v0 hx, weights_apply x p v0 hx, weightSum_apply x p v0 hx]

end Picture

end Cert.KernelIdeal.Entry

end
-- ==== Proof.KernelArray.lean ====
/-
  From the pictures to the whole array: what the kernel's result array holds after the run.

  The grid has one point per picture. Point `t` stages picture `t` of the image (block index (t, 0, 0, 0), block size
  [1, 64, 64, 512]) and the whole of every other operand (block index zero, block size the array's), and writes its
  result back to picture `t` of the output. The three weight matrices reach the kernel through a narrowing that is the
  identity on the extended reals. So what point `t` writes back is picture `t` of the specification of the argument
  arrays; the sixteen pictures cover the array; and the array ends holding the specification.
-/
import proofs.«151281_j27994596835718_1_alg».proof.Proof.Gen.KernelIdeal.Value
import proofs.«151281_j27994596835718_1_alg».proof.Proof.KernelBody
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.Attn Idealize.ShloMosaic.StableHlo
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The specification of core `c`'s argument arrays as launched. -/
abbrev spec (c : Dev nD) : S16x64x64x512.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The index maps, decided over the sixteen points: the image and the output move with the point along the
    picture axis; every other operand stays at block zero. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_8.index t (0 : Fin 4) = t.val ∧ win0_8.index t (1 : Fin 4) = 0 ∧ win0_8.index t (2 : Fin 4) = 0 ∧ win0_8.index t (3 : Fin 4) = 0)
    ∧ (win0_1.index t (0 : Fin 2) = 0 ∧ win0_1.index t (1 : Fin 2) = 0)
    ∧ (win0_3.index t (0 : Fin 2) = 0 ∧ win0_3.index t (1 : Fin 2) = 0)
    ∧ (win0_5.index t (0 : Fin 2) = 0 ∧ win0_5.index t (1 : Fin 2) = 0)
    ∧ win0_2.index t (0 : Fin 1) = 0 ∧ win0_4.index t (0 : Fin 1) = 0 ∧ win0_6.index t (0 : Fin 1) = 0 ∧ win0_7.index t (0 : Fin 1) = 0
    ∧ t.val < 16 :=
  (by decide +kernel : ∀ t : Fin grid0.N, _)

/-! ## The weight matrices as the region finds them -/

theorem V_wq (c : Dev nD) : (V m c main_v0 : S512x512.Idx → EReal) = m ((c : Thread nD τ).loc main_arg1) := by
  dsimp only [Gen.V, Gen.hostOps0]; after_results; rfl
theorem V_wk (c : Dev nD) : (V m c main_v1 : S512x512.Idx → EReal) = m ((c : Thread nD τ).loc main_arg3) := by
  dsimp only [Gen.V, Gen.hostOps0]; after_results; rfl
theorem V_wv (c : Dev nD) : (V m c main_v2 : S512x512.Idx → EReal) = m ((c : Thread nD τ).loc main_arg5) := by
  dsimp only [Gen.V, Gen.hostOps0]; after_results; rfl

/-! ## The operands staged whole -/

/-- The query weights, staged whole. -/
theorem blk_wq (c : Dev nD) (t : Fin cfg0.N) : (iblk m c 1 t : S512x512.Idx → EReal) = m ((c : Thread nD τ).loc main_arg1) := by
  obtain ⟨-, -, ⟨e0, e1⟩, -⟩ := idx_facts t
  rw [← V_wq m c]
  funext y
  show V m c main_v0 (((cfg0.win 1).blk t).view.emb y) = V m c main_v0 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The key weights, staged whole. -/
theorem blk_wk (c : Dev nD) (t : Fin cfg0.N) : (iblk m c 3 t : S512x512.Idx → EReal) = m ((c : Thread nD τ).loc main_arg3) := by
  obtain ⟨-, -, -, ⟨e0, e1⟩, -⟩ := idx_facts t
  rw [← V_wk m c]
  funext y
  show V m c main_v1 (((cfg0.win 3).blk t).view.emb y) = V m c main_v1 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- The value weights, staged whole. -/
theorem blk_wv (c : Dev nD) (t : Fin cfg0.N) : (iblk m c 5 t : S512x512.Idx → EReal) = m ((c : Thread nD τ).loc main_arg5) := by
  obtain ⟨-, -, -, -, ⟨e0, e1⟩, -⟩ := idx_facts t
  rw [← V_wv m c]
  funext y
  show V m c main_v2 (((cfg0.win 5).blk t).view.emb y) = V m c main_v2 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

/-- The query bias, staged whole. -/
theorem blk_bq (c : Dev nD) (t : Fin cfg0.N) : (iblk m c 2 t : S512.Idx → EReal) = m ((c : Thread nD τ).loc main_arg2) := by
  obtain ⟨-, -, -, -, -, e0, -⟩ := idx_facts t
  rw [← V_main_arg2 m c]
  funext y
  show V m c main_arg2 (((cfg0.win 2).blk t).view.emb y) = V m c main_arg2 y
  refine congrArg _ (funext fun a => Fin.ext ?_)
  match a with
  | ⟨0, _⟩ => show win0_2.index t (0 : Fin 1) * 512 + 1 * (y 0).val = (y 0).val; omega

/-- The key bias, staged whole. -/
theorem blk_bk (c : Dev nD) (t : Fin cfg0.N) : (iblk m c 4 t : S512.Idx → EReal) = m ((c : Thread nD τ).loc main_arg4) := by
  obtain ⟨-, -, -, -, -, -, e0, -⟩ := idx_facts t
  rw [← V_main_arg4 m c]
  funext y
  show V m c main_arg4 (((cfg0.win 4).blk t).view.emb y) = V m c main_arg4 y
  refine congrArg _ (funext fun a => Fin.ext ?_)
  match a with
  | ⟨0, _⟩ => show win0_4.index t (0 : Fin 1) * 512 + 1 * (y 0).val = (y 0).val; omega

/-- The value bias, staged whole. -/
theorem blk_bv (c : Dev nD) (t : Fin cfg0.N) : (iblk m c 6 t : S512.Idx → EReal) = m ((c : Thread nD τ).loc main_arg6) := by
  obtain ⟨-, -, -, -, -, -, -, e0, -⟩ := idx_facts t
  rw [← V_main_arg6 m c]
  funext y
  show V m c main_arg6 (((cfg0.win 6).blk t).view.emb y) = V m c main_arg6 y
  refine congrArg _ (funext fun a => Fin.ext ?_)
  match a with
  | ⟨0, _⟩ => show win0_6.index t (0 : Fin 1) * 512 + 1 * (y 0).val = (y 0).val; omega

/-- The one-entry array of gamma, staged whole. -/
theorem blk_gamma (c : Dev nD) (t : Fin cfg0.N) : (iblk m c 7 t : S1.Idx → EReal) = m ((c : Thread nD τ).loc main_arg7) := by
  obtain ⟨-, -, -, -, -, -, -, -, e0, -⟩ := idx_facts t
  rw [← V_main_arg7 m c]
  funext y
  show V m c main_arg7 (((cfg0.win 7).blk t).view.emb y) = V m c main_arg7 y
  refine congrArg _ (funext fun a => Fin.ext ?_)
  match a with
  | ⟨0, _⟩ => show win0_7.index t (0 : Fin 1) * 1 + 1 * (y 0).val = (y 0).val; omega

/-! ## The picture of a point -/

theorem point_lt : ∀ t : Fin cfg0.N, t.val < 16 := (by decide +kernel : ∀ t : Fin grid0.N, t.val < 16)

/-- The picture point `t` works on. -/
def pic (t : Fin cfg0.N) : Fin 16 := ⟨t.val, point_lt t⟩

/-- Point `t`'s block of the image is picture `t`. -/
theorem blk_picture (c : Dev nD) (t : Fin cfg0.N) (h w : Fin 64) (j : Fin 512) :
    iblk m c 0 t (ix4 0 h w j) = m ((c : Thread nD τ).loc main_arg0) (ix4 (pic t) h w j) := by
  obtain ⟨⟨e0, e1, e2, e3⟩, -⟩ := idx_facts t
  rw [← V_main_arg0 m c]
  show V m c main_arg0 (((cfg0.win 0).blk t).view.emb (ix4 0 h w j)) = V m c main_arg0 (ix4 (pic t) h w j)
  refine congrArg _ (funext fun a => Fin.ext ?_)
  match a with
  | ⟨0, _⟩ => show win0_0.index t (0 : Fin 4) * 1 + 1 * 0 = t.val; omega
  | ⟨1, _⟩ => show win0_0.index t (1 : Fin 4) * 64 + 1 * h.val = h.val; omega
  | ⟨2, _⟩ => show win0_0.index t (2 : Fin 4) * 64 + 1 * w.val = w.val; omega
  | ⟨3, _⟩ => show win0_0.index t (3 : Fin 4) * 512 + 1 * j.val = j.val; omega

/-- Entry (0, h, w, d) of point `t`'s output block sits at (t, h, w, d) of the output array. -/
theorem out_emb (t : Fin cfg0.N) (h w : Fin 64) (d : Fin 512) :
    ((cfg0.win 8).blk t).view.emb (ix4 0 h w d) = ix4 (pic t) h w d := by
  obtain ⟨-, ⟨e0, e1, e2, e3⟩, -⟩ := idx_facts t
  refine funext fun a => Fin.ext ?_
  match a with
  | ⟨0, _⟩ => show win0_8.index t (0 : Fin 4) * 1 + 1 * 0 = t.val; omega
  | ⟨1, _⟩ => show win0_8.index t (1 : Fin 4) * 64 + 1 * h.val = h.val; omega
  | ⟨2, _⟩ => show win0_8.index t (2 : Fin 4) * 64 + 1 * w.val = w.val; omega
  | ⟨3, _⟩ => show win0_8.index t (3 : Fin 4) * 512 + 1 * d.val = d.val; omega

/-! ## What a point writes back -/

/-- WHAT POINT `t` WRITES BACK is picture `t` of the specification of the argument arrays. -/
theorem flushed_eq (c : Dev nD) (t : Fin cfg0.N) :
    (dats m 0 c).flushed 8 t = ((cfg0.win 8).blk t).view.read (Elt Ideal) (spec m c) := by
  rw [Value.flushed8]
  unfold out0_8
  rw [View.canon_unit_zero zeros4]
  simp only [View.ld_unit_zero (S := S1x64x64x512) zeros4, View.ld_unit_zero (S := S512x512) zeros2,
    View.ld_unit_zero (S := S512) zeros1, View.ld_unit_zero (S := S1) zeros1]
  funext y
  obtain ⟨h, w, d, rfl⟩ : ∃ (h w : Fin 64) (d : Fin 512), y = ix4 0 h w d :=
    ⟨y 1, y 2, y 3, funext fun a => Fin.ext (by
      match a with
      | ⟨0, _⟩ => exact Nat.lt_one_iff.mp (show (y 0).val < 1 from (y 0).isLt)
      | ⟨1, _⟩ => rfl
      | ⟨2, _⟩ => rfl
      | ⟨3, _⟩ => rfl)⟩
  show k0_pay1 (k0_pay2 (iblk m c 0 t)) (k0_pay4 (iblk m c 0 t) (iblk m c 5 t) (iblk m c 6 t))
      (k0_pay5 (iblk m c 0 t) (iblk m c 1 t) (iblk m c 2 t) (iblk m c 3 t) (iblk m c 4 t))
      (k0_pay6 (iblk m c 0 t) (iblk m c 1 t) (iblk m c 2 t) (iblk m c 3 t) (iblk m c 4 t)) (iblk m c 7 t) (ix4 0 h w d)
    = spec m c (((cfg0.win 8).blk t).view.emb (ix4 0 h w d))
  rw [out_emb t h w d]
  refine (Entry.block_apply (m ((c : Thread nD τ).loc main_arg0)) (pic t) (iblk m c 0 t) (blk_picture m c t)
    (iblk m c 1 t) (iblk m c 2 t) (iblk m c 3 t) (iblk m c 4 t) (iblk m c 5 t) (iblk m c 6 t) (iblk m c 7 t) h w d).trans ?_
  rw [blk_wq m c t, blk_bq m c t, blk_wk m c t, blk_bk m c t, blk_wv m c t, blk_bv m c t, blk_gamma m c t]

/-! ## The pictures cover the array -/

/-- An index of the output array is in point `t`'s block iff each coordinate is in the block's range on its axis. -/
theorem mem_blk (t : Fin cfg0.N) (i : S16x64x64x512.Idx) :
    i ∈ ((cfg0.win 8).blk t).view.set ↔ ∀ a : Fin 4, win0_8.index t a * S1x64x64x512.size a ≤ (i a).val ∧ (i a).val < win0_8.index t a * S1x64x64x512.size a + S1x64x64x512.size a := by
  show i ∈ ((View.whole main_v3).slice (win0_8.rect t)).set ↔ _
  rw [View.set_slice_whole, Rect.mem_set_unit]
  exact Iff.rfl

/-- Every picture is some point's. -/
theorem idx_onto : ∀ q : Fin 16, ∃ t : Fin cfg0.N, win0_8.index t = ![q.val, 0, 0, 0] :=
  (by decide +kernel : ∀ q : Fin 16, ∃ t : Fin grid0.N, win0_8.index t = ![q.val, 0, 0, 0])

/-- Every index of the output array is in the block of the point of its picture. -/
theorem cover (i : S16x64x64x512.Idx) :
    ∃ t : Fin cfg0.N, (cfg0.win 8).flush t = true ∧ i ∈ ((cfg0.win 8).blk t).view.set := by
  obtain ⟨t, ht⟩ := idx_onto ⟨(i 0).val, (i 0).isLt⟩
  have q0 : win0_8.index t (0 : Fin 4) = (i 0).val := congrFun ht 0
  have q1 : win0_8.index t (1 : Fin 4) = 0 := congrFun ht 1
  have q2 : win0_8.index t (2 : Fin 4) = 0 := congrFun ht 2
  have q3 : win0_8.index t (3 : Fin 4) = 0 := congrFun ht 3
  have h1 : (i 1).val < 64 := (i 1).isLt
  have h2 : (i 2).val < 64 := (i 2).isLt
  have h3 : (i 3).val < 512 := (i 3).isLt
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 64 ≤ (i 1).val ∧ (i 1).val < win0_8.index t (1 : Fin 4) * 64 + 64; omega
  | ⟨2, _⟩ => show win0_8.index t (2 : Fin 4) * 64 ≤ (i 2).val ∧ (i 2).val < win0_8.index t (2 : Fin 4) * 64 + 64; omega
  | ⟨3, _⟩ => show win0_8.index t (3 : Fin 4) * 512 ≤ (i 3).val ∧ (i 3).val < win0_8.index t (3 : Fin 4) * 512 + 512; omega

/-! ## The array after the run -/

/-- THE OUTPUT ARRAY after the run is the specification of the argument arrays. -/
theorem final (c : Dev nD) : (dats m 0 c).arrAt 8 cfg0.N = spec m c :=
  (dats m 0 c).arrAt_eq_of_cover 8 (spec m c) (fun t _ => flushed_eq m c t) cover

/-- The kernel's run: every weakly fair execution ends with the result array at the specification and the arguments unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ArrayValue

end
-- ==== Proof.RefIsSpec.lean ====
/-
  The reference program computes the attention block of the specification, entry by entry.

  The reference is read one operation at a time. Each of its three projections is a contraction of the image's
  channel axis with a weight matrix, plus a bias spread over the pixels, with the two pixel axes then merged into
  one: pixel (h, w) becomes n = h * 64 + w. The scores contract the merged pixel axis; each row of the scores is
  normalised by a softmax written out as maximum, subtraction, exponential, sum and division; the values are
  contracted with the normalised scores over the channel axis, the pixel axis is split again, and the image is added
  to gamma times that. Every step below identifies one operation at explicit coordinates with the matching line of
  the specification; the only arithmetic is on the coordinates (merging and splitting the pixel index).
-/
import proofs.«151281_j27994596835718_1_alg».proof.Proof.Gen.ReferenceIdeal.Read
import proofs.«151281_j27994596835718_1_alg».proof.Proof.AttnSpec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Cert.ReferenceIdeal Cert.ReferenceIdeal.Read Idealize.ShloMosaic Idealize.ShloMosaic.ValueIdx Cert.Lib.RowSoftmax Cert.Attn

/-! ## Coordinates -/

/-- Splitting the merged pixel axis: entry (p, n, f) of the [16, 4096, 512] layout is entry
    (p, n / 64, n % 64, f) of the [16, 64, 64, 512] layout. -/
theorem split_pixel (p : Fin 16) (n : Fin 4096) (f : Fin 512) :
    idx_main_v4 (ix3 p n f) = ix4 p (pixRow n) (pixCol n) f := by
  funext a; apply Fin.ext
  have hp := p.isLt; have hn := n.isLt; have hf := f.isLt
  match a with
  | ⟨0, _⟩ => show ((p.val * 4096 + n.val) * 512 + f.val) / 2097152 = p.val; omega
  | ⟨1, _⟩ => show ((p.val * 4096 + n.val) * 512 + f.val) / 32768 % 64 = n.val / 64; omega
  | ⟨2, _⟩ => show ((p.val * 4096 + n.val) * 512 + f.val) / 512 % 64 = n.val % 64; omega
  | ⟨3, _⟩ => show ((p.val * 4096 + n.val) * 512 + f.val) % 512 = f.val; omega

/-- Merging the two pixel axes: entry (p, h, w, d) of the [16, 64, 64, 512] layout is entry
    (p, h * 64 + w, d) of the [16, 4096, 512] layout. -/
theorem merge_pixel (p : Fin 16) (h w : Fin 64) (d : Fin 512) :
    idx_main_v28 (ix4 p h w d) = ix3 p (pixOf h w) d := by
  funext a; apply Fin.ext
  have hp := p.isLt; have hh := h.isLt; have hw := w.isLt; have hd := d.isLt
  match a with
  | ⟨0, _⟩ => show (((p.val * 64 + h.val) * 64 + w.val) * 512 + d.val) / 2097152 = p.val; omega
  | ⟨1, _⟩ => show (((p.val * 64 + h.val) * 64 + w.val) * 512 + d.val) / 512 % 4096 = h.val * 64 + w.val; omega
  | ⟨2, _⟩ => show (((p.val * 64 + h.val) * 64 + w.val) * 512 + d.val) % 512 = d.val; omega

/-- In a projection the image is read at the output's picture and pixel and at the contracted channel. -/
theorem proj_lhs (p : Fin 16) (h w : Fin 64) (f k : Fin 512) :
    lidx_main_v0 (ix4 p h w f) k = ix4 p h w k := by
  funext a; match a with | ⟨0, _⟩ => rfl | ⟨1, _⟩ => rfl | ⟨2, _⟩ => rfl | ⟨3, _⟩ => rfl

/-- In a projection the weight is read at the contracted channel and the output channel. -/
theorem proj_rhs (p : Fin 16) (h w : Fin 64) (f k : Fin 512) :
    ridx_main_v0 (ix4 p h w f) k = ix2 k f := by
  funext a; match a with | ⟨0, _⟩ => rfl | ⟨1, _⟩ => rfl

/-- The bias, spread over pictures and pixels, is read at the output channel. -/
theorem proj_bias (p : Fin 16) (h w : Fin 64) (f : Fin 512) :
    idx_main_v1 (idx_main_v2 (ix4 p h w f)) = ix1 f := by
  funext a; match a with | ⟨0, _⟩ => rfl

/-! ## The three projections -/

/-- A contraction over the channels plus a spread bias, read through the merged pixel axis, is `proj`. -/
theorem proj_read (x : Img.Idx → EReal) (w : Mat.Idx → EReal) (b : Chan.Idx → EReal)
    (p : Fin 16) (n : Fin 4096) (f : Fin 512) :
    (∑ k : Fin 512, x (lidx_main_v0 (idx_main_v4 (ix3 p n f)) k) * w (ridx_main_v0 (idx_main_v4 (ix3 p n f)) k))
        + b (idx_main_v1 (idx_main_v2 (idx_main_v4 (ix3 p n f))))
      = proj x w b p n f := by
  rw [split_pixel, proj_bias]
  unfold proj
  refine congrArg (· + b (ix1 f)) (Finset.sum_congr rfl fun k _ => ?_)
  rw [proj_lhs, proj_rhs]

/-- The queries: operations 0 to 4 at (p, n, f). -/
theorem q_read (x0 : (⟨S16x64x64x512, .f32⟩ : BufTy).Contents (Elt Ideal)) (x1 : (⟨S512x512, .f32⟩ : BufTy).Contents (Elt Ideal))
    (x2 : (⟨S512, .f32⟩ : BufTy).Contents (Elt Ideal)) (p : Fin 16) (n : Fin 4096) (f : Fin 512) :
    val_main_v4 (F := Ideal) x0 x1 x2 (ix3 p n f) = proj x0 x1 x2 p n f := by
  rw [val_main_v4_apply, val_main_v3_apply, val_main_v0_apply, val_main_v2_apply, val_main_v1_apply]
  exact proj_read x0 x1 x2 p n f

/-- The keys: operations 5 to 9 at (p, n, f). -/
theorem k_read (x0 : (⟨S16x64x64x512, .f32⟩ : BufTy).Contents (Elt Ideal)) (x3 : (⟨S512x512, .f32⟩ : BufTy).Contents (Elt Ideal))
    (x4 : (⟨S512, .f32⟩ : BufTy).Contents (Elt Ideal)) (p : Fin 16) (n : Fin 4096) (f : Fin 512) :
    val_main_v9 (F := Ideal) x0 x3 x4 (ix3 p n f) = proj x0 x3 x4 p n f := by
  rw [val_main_v9_apply, val_main_v8_apply, val_main_v5_apply, val_main_v7_apply, val_main_v6_apply]
  exact proj_read x0 x3 x4 p n f

/-- The values: operations 10 to 14 at (p, n, f). -/
theorem v_read (x0 : (⟨S16x64x64x512, .f32⟩ : BufTy).Contents (Elt Ideal)) (x5 : (⟨S512x512, .f32⟩ : BufTy).Contents (Elt Ideal))
    (x6 : (⟨S512, .f32⟩ : BufTy).Contents (Elt Ideal)) (p : Fin 16) (n : Fin 4096) (f : Fin 512) :
    val_main_v14 (F := Ideal) x0 x5 x6 (ix3 p n f) = proj x0 x5 x6 p n f := by
  rw [val_main_v14_apply, val_main_v13_apply, val_main_v10_apply, val_main_v12_apply, val_main_v11_apply]
  exact proj_read x0 x5 x6 p n f

/-! ## The scores -/

/-- The scores read the queries at the contracted pixel and the row's channel. -/
theorem score_lhs (p : Fin 16) (c d : Fin 512) (n : Fin 4096) :
    lidx_main_v15 (ix3 p c d) n = ix3 p n c := by
  funext a; match a with | ⟨0, _⟩ => rfl | ⟨1, _⟩ => rfl | ⟨2, _⟩ => rfl

/-- The scores read the keys at the contracted pixel and the column's channel. -/
theorem score_rhs (p : Fin 16) (c d : Fin 512) (n : Fin 4096) :
    ridx_main_v15 (ix3 p c d) n = ix3 p n d := by
  funext a; match a with | ⟨0, _⟩ => rfl | ⟨1, _⟩ => rfl | ⟨2, _⟩ => rfl

/-- Operation 15 at (p, c, d): the sum over the pixels of query channel c times key channel d. -/
theorem score_read (x0 : (⟨S16x64x64x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (p : Fin 16) (c d : Fin 512) :
    val_main_v15 (F := Ideal) x0 x1 x2 x3 x4 (ix3 p c d) = score x0 x1 x2 x3 x4 p c d := by
  rw [val_main_v15_apply]
  unfold score
  refine Finset.sum_congr rfl fun n _ => ?_
  rw [score_lhs, score_rhs, q_read, k_read]

/-! ## The softmax of a row of the scores -/

/-- The reduced index (p, c) with the dropped coordinate d put back is (p, c, d). -/
theorem lift_last (h : S16x512x512.Reduces [2] S16x512) (p : Fin 16) (c : Fin 512) (d : Fin 512) :
    h.lift (ix2 p c) d = ix3 p c d := by
  funext a; apply Fin.ext
  match a with
  | ⟨0, _⟩ => rfl
  | ⟨1, _⟩ => rfl
  | ⟨2, _⟩ => rfl

/-- Operation 16 at (p, c): the maximum of row c of picture p's scores, folded from -∞. -/
theorem rowmax_read (x0 : (⟨S16x64x64x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (p : Fin 16) (c : Fin 512) :
    val_main_v16 (F := Ideal) x0 x1 x2 x3 x4 (ix2 p c) = maxOf (fun d' => score x0 x1 x2 x3 x4 p c d') := by
  have h : S16x512x512.Reduces [2] S16x512 := by decide
  unfold val_main_v16
  rw [Host.reduce_eq_fold_single (FloatOps.maximumf (F := Ideal) (φ := .f32)) _ _ Gen.reducesTo_S16x512x512_S16x512_d2 h Gen.h_S_]
  show (Finset.univ : Finset (Fin 512)).fold max negInf (val_main_v15 (F := Ideal) x0 x1 x2 x3 x4 ∘ h.lift (ix2 p c)) = _
  unfold maxOf
  exact congrArg (fun f => (Finset.univ : Finset (Fin 512)).fold max negInf f)
    (funext fun d => (congrArg (val_main_v15 (F := Ideal) x0 x1 x2 x3 x4) (lift_last h p c d)).trans
      (score_read x0 x1 x2 x3 x4 p c d))

/-- Operations 17 and 18 at (p, c): the maximum of -∞ and the row's maximum is the row's maximum. -/
theorem rowmax_read' (x0 : (⟨S16x64x64x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (p : Fin 16) (c : Fin 512) :
    val_main_v18 (F := Ideal) x0 x1 x2 x3 x4 (ix2 p c) = maxOf (fun d' => score x0 x1 x2 x3 x4 p c d') := by
  rw [val_main_v18_apply, val_main_v17_apply, rowmax_read]
  exact max_negInf_maxOf _

/-- A row statistic kept as a column and spread over the row is read at the row. -/
theorem keep_row (p : Fin 16) (c d : Fin 512) :
    idx_main_v19 (idx_main_v20 (ix3 p c d)) = ix2 p c := by
  funext a; match a with | ⟨0, _⟩ => rfl | ⟨1, _⟩ => rfl

/-- Operations 19 to 22 at (p, c, d): the exponential of the score minus its row's maximum. -/
theorem weight_read (x0 : (⟨S16x64x64x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (p : Fin 16) (c d : Fin 512) :
    val_main_v22 (F := Ideal) x0 x1 x2 x3 x4 (ix3 p c d)
      = weightOf (fun d' => score x0 x1 x2 x3 x4 p c d') d := by
  rw [val_main_v22_apply, val_main_v21_apply, score_read, val_main_v20_apply, val_main_v19_apply, keep_row, rowmax_read']
  rfl

/-- The row sum reads the weights of row (p, c) at every d. -/
theorem sum_row (p : Fin 16) (c d : Fin 512) : idx_main_v23 (ix2 p c) d = ix3 p c d := by
  funext a; match a with | ⟨0, _⟩ => rfl | ⟨1, _⟩ => rfl | ⟨2, _⟩ => rfl

/-- Operation 23 at (p, c): zero plus the sum of the row's weights, that is, their sum. -/
theorem weightsum_read (x0 : (⟨S16x64x64x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (p : Fin 16) (c : Fin 512) :
    val_main_v23 (F := Ideal) x0 x1 x2 x3 x4 (ix2 p c)
      = ∑ d : Fin 512, weightOf (fun d' => score x0 x1 x2 x3 x4 p c d') d := by
  rw [val_main_v23_apply]
  show Ideal.ofBits .f32 0x00000000#32 + _ = _
  rw [Ideal.ofBits_zero_f32, zero_add]
  refine Finset.sum_congr rfl fun d _ => ?_
  rw [sum_row, weight_read]

/-- The row's sum, kept as a column and spread over the row, is read at the row. -/
theorem keep_row' (p : Fin 16) (c d : Fin 512) :
    idx_main_v24 (idx_main_v25 (ix3 p c d)) = ix2 p c := by
  funext a; match a with | ⟨0, _⟩ => rfl | ⟨1, _⟩ => rfl

/-- Operations 24 to 26 at (p, c, d): the weight over the row's sum of weights, the softmax of row c at d. -/
theorem attn_read (x0 : (⟨S16x64x64x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (p : Fin 16) (c d : Fin 512) :
    val_main_v26 (F := Ideal) x0 x1 x2 x3 x4 (ix3 p c d) = attn x0 x1 x2 x3 x4 p c d := by
  rw [val_main_v26_apply, weight_read, val_main_v25_apply, val_main_v24_apply, keep_row', weightsum_read]
  rfl

/-! ## The mix and the result -/

/-- The mix reads the values at the output's picture and pixel and at the contracted channel. -/
theorem mix_lhs (p : Fin 16) (n : Fin 4096) (d c : Fin 512) :
    lidx_main_v27 (ix3 p n d) c = ix3 p n c := by
  funext a; match a with | ⟨0, _⟩ => rfl | ⟨1, _⟩ => rfl | ⟨2, _⟩ => rfl

/-- The mix reads the attention weights at the contracted channel and the output channel. -/
theorem mix_rhs (p : Fin 16) (n : Fin 4096) (d c : Fin 512) :
    ridx_main_v27 (ix3 p n d) c = ix3 p c d := by
  funext a; match a with | ⟨0, _⟩ => rfl | ⟨1, _⟩ => rfl | ⟨2, _⟩ => rfl

/-- Operation 27 at (p, n, d): the sum over the channels c of value channel c times the attention weight (c, d). -/
theorem mixed_read (x0 : (⟨S16x64x64x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (p : Fin 16) (n : Fin 4096) (d : Fin 512) :
    val_main_v27 (F := Ideal) x0 x1 x2 x3 x4 x5 x6 (ix3 p n d) = mixed x0 x1 x2 x3 x4 x5 x6 p n d := by
  rw [val_main_v27_apply]
  unfold mixed
  refine Finset.sum_congr rfl fun c _ => ?_
  rw [mix_lhs, mix_rhs, v_read, attn_read]

/-- Operation 28 at (p, h, w, d): the mix at pixel h * 64 + w. -/
theorem mixed_image_read (x0 : (⟨S16x64x64x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (p : Fin 16) (h w : Fin 64) (d : Fin 512) :
    val_main_v28 (F := Ideal) x0 x1 x2 x3 x4 x5 x6 (ix4 p h w d) = mixed x0 x1 x2 x3 x4 x5 x6 p (pixOf h w) d := by
  rw [val_main_v28_apply, merge_pixel, mixed_read]

/-- Operations 29 and 30 at any entry: the one entry of gamma. -/
theorem gamma_read (x7 : (⟨S1, .f32⟩ : BufTy).Contents (Elt Ideal)) (i : S16x64x64x512.Idx) :
    val_main_v30 (F := Ideal) x7 i = x7 (ix1 0) := by
  rw [val_main_v30_apply, val_main_v29_apply]
  exact congrArg x7 (funext fun a => match a with | ⟨0, _⟩ => rfl)

/-- The reference's result is the specification's: the image plus gamma times the mix, at every entry. -/
theorem ref_is_spec (x0 : (⟨S16x64x64x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S1, .f32⟩ : BufTy).Contents (Elt Ideal)) :
    Cert.ReferenceIdeal.Read.val_main_v32 (F := Ideal) x0 x1 x2 x3 x4 x5 x6 x7 = Cert.Attn.result x0 x1 x2 x3 x4 x5 x6 x7 := by
  funext i
  obtain ⟨p, h, w, d, rfl⟩ : ∃ (p : Fin 16) (h w : Fin 64) (d : Fin 512), i = ix4 p h w d :=
    ⟨i 0, i 1, i 2, i 3, eq_ix4 i⟩
  rw [val_main_v32_apply, val_main_v31_apply, gamma_read, mixed_image_read]
  rfl

end Cert.ReferenceIdeal.RefValue

end
-- ==== Proof.lean ====
/-
  The certificate of the attention block: a 1 × 1-convolution query / key / value projection, channel-by-channel
  scores summed over the pixels, a softmax over each row of the scores, the values mixed by it, and a residual.

  Kernel and reference apply the same operations in the same grouping, so at the ideal values (extended reals, exact
  operations, changes of float format the identity) both compute one function of the eight argument arrays — the
  specification `Cert.Attn.result` — and no law of arithmetic is needed beyond re-indexing the sums: the kernel works
  one picture at a time on a [4096, 512] matrix of pixels by channels, the reference on the whole batch with the pixel
  axis merged and split by reshapes. Finiteness of the inputs is therefore never used.

  The kernel's result array is the specification (`Cert.KernelIdeal.ArrayValue.run`: the body read entry by entry, each
  point writing back its picture, the sixteen pictures covering the array); the reference's result term is the
  specification (`Cert.ReferenceIdeal.RefValue.ref_is_spec`: its operations read one at a time). The three frames are
  the programs' runs with the result forgotten, and no operation of the kernel was rewritten in its idealization, so
  `preserves` holds trivially.
-/
import proofs.«151281_j27994596835718_1_alg».proof.Defs
import proofs.«151281_j27994596835718_1_alg».proof.Proof.Gen.Kernel
import proofs.«151281_j27994596835718_1_alg».proof.Proof.Gen.Kernel.Skeleton
import proofs.«151281_j27994596835718_1_alg».proof.Proof.Gen.Kernel.Launch
import proofs.«151281_j27994596835718_1_alg».proof.Proof.Gen.Kernel.Points
import proofs.«151281_j27994596835718_1_alg».proof.Proof.Gen.Kernel.Frame
import proofs.«151281_j27994596835718_1_alg».proof.Proof.Gen.KernelIdeal
import proofs.«151281_j27994596835718_1_alg».proof.Proof.Gen.KernelIdeal.Skeleton
import proofs.«151281_j27994596835718_1_alg».proof.Proof.Gen.KernelIdeal.Launch
import proofs.«151281_j27994596835718_1_alg».proof.Proof.Gen.KernelIdeal.Points
import proofs.«151281_j27994596835718_1_alg».proof.Proof.Gen.KernelIdeal.Frame
import proofs.«151281_j27994596835718_1_alg».proof.Proof.Gen.ReferenceIdeal
import proofs.«151281_j27994596835718_1_alg».proof.Proof.Gen.Pre_finite_inputs
import proofs.«151281_j27994596835718_1_alg».proof.Proof.Gen.KernelIdeal.Value
import proofs.«151281_j27994596835718_1_alg».proof.Proof.Gen.ReferenceIdeal.Run
import proofs.«151281_j27994596835718_1_alg».proof.Proof.Gen.ReferenceIdeal.Read
import proofs.«151281_j27994596835718_1_alg».proof.Proof.KernelArray
import proofs.«151281_j27994596835718_1_alg».proof.Proof.RefIsSpec
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: no operation was rewritten. -/
theorem preserves : Cert.preserves_Kernel_KernelIdeal := trivial

/-- From memories that agree on the arguments both programs end with the specification of those arguments in
    their result arrays: the kernel's run gives it for its own arguments, the reference's run for the reference's,
    and the arguments are the same. -/
theorem algebraic : Cert.algebraic_KernelIdeal_ReferenceIdeal := by
  intro m ρ m' ρ' _ hagree
  refine ⟨fun c => Cert.KernelIdeal.ArrayValue.spec m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v32_eq, Cert.ReferenceIdeal.RefValue.ref_is_spec, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
